-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩
abbrev S400x10000 : Shape := ⟨2, ![400, 10000]⟩
abbrev S400x128 : Shape := ⟨2, ![400, 128]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .hbm, ⟨6, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S400x128, .f32⟩
  | .local _ .vmem, ⟨10, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  dot_S1000x128_S128x128_S1000x128_1_0_0_1_n_n_wf : DotDims.WF S1000x128 S128x128 S1000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.HiddenBlock.lean ====
/-
  The first kernel's body at one entry.

  On a block of 1000 rows of x, the whole of W and the bias as a one-row matrix, the body stores x_blk · Wᵀ + bias:
  entry (p, q) of the stored block is the inner product of row p of the x block with row q of W (the transpose turns
  W's rows into the product's columns), plus the bias at q (the one row is repeated down the block).
-/
import proofs.«123959_g59639915872694_cont_9to1c4b_869_4_alg».proof.Proof.Gen.KernelIdeal.Skeleton
import proofs.«123959_g59639915872694_cont_9to1c4b_869_4_alg».proof.Proof.LibPlainDot
import Idealize.ShloMosaic.Lib.Pipeline.Value
import Idealize.ShloMosaic.Lib.ValueIdx
import Idealize.ShloMosaic.Lib.ValueLayout

noncomputable section

namespace Cert.GcnLayer

open Cert.KernelIdeal Cert.KernelIdeal.Gen Idealize.ShloMosaic Idealize.ShloMosaic.ValueIdx

/-- The transposed weight matrix at (l, q) is W at (q, l). -/
theorem weight_transposed (W : FVec Ideal S128x128 .f32) (l q : Fin 128) :
    transpose S128x128 [1, 0] W Facts₀.transposes_S128x128_p1_0_S128x128 (ix2 l q) = W (ix2 q l) :=
  transpose_apply [1, 0] W Facts₀.transposes_S128x128_p1_0_S128x128 (ix2 l q) (ix2 q l) (fun b => match b with
    | ⟨0, _⟩ => rfl
    | ⟨1, _⟩ => rfl)

/-- Entry (p, q) of what the first kernel stores: Σ_l x (p, l) · W (q, l) + bias (0, q). -/
theorem hidden_block_apply (x : FVec Ideal S1000x128 .f32) (W : FVec Ideal S128x128 .f32) (b : FVec Ideal S1x128 .f32)
    (p : Fin 1000) (q : Fin 128) :
    k0_pay1 (F := Ideal) x W b (ix2 p q) = (∑ l : Fin 128, x (ix2 p l) * W (ix2 q l)) + b (ix2 (0 : Fin 1) q) := by
  unfold k0_pay1
  refine (addf_apply _ _ _).trans ?_
  refine congrArg₂ (· + ·) ?_ ?_
  · refine (Cert.PlainDot.matmul_apply dot_S1000x128_S128x128_S1000x128_1_0_0_1_n_n ⟨rfl, rfl, rfl, rfl, rfl, rfl⟩ none x _ p q).trans ?_
    exact Finset.sum_congr rfl fun l _ => congrArg (x (ix2 p l) * ·) (weight_transposed W l q)
  · refine (broadcastTo_1b_ab_apply _ _ p q).trans ?_
    exact congrFun (shapeCast_self b _) _

/-- The stored block as one function of its index. -/
theorem hidden_block (x : FVec Ideal S1000x128 .f32) (W : FVec Ideal S128x128 .f32) (b : FVec Ideal S1x128 .f32) :
    k0_pay1 (F := Ideal) x W b
      = fun j => (∑ l : Fin 128, x (ix2 (j 0) l) * W (ix2 (j 1) l)) + b (ix2 (0 : Fin 1) (j 1)) := by
  funext j
  obtain ⟨p, q, rfl⟩ : ∃ (p : Fin 1000) (q : Fin 128), j = ix2 p q := ⟨j 0, j 1, eq_ix2 j⟩
  exact hidden_block_apply x W b p q

end Cert.GcnLayer

end
-- ==== Proof.LayerSpec.lean ====
/-
  One dense graph-convolution layer over the extended reals, entry by entry.

  For node features x (10000 × 128), a weight matrix W (128 × 128, its rows indexed by the output feature), a bias b (128)
  and a dense adjacency matrix adj (10000 × 10000):

    hidden (r, j) = Σ_l x (r, l) · W (j, l) + b (j)                (the linear map x · Wᵀ + b)
    layer  (r, j) = max (Σ_k adj (r, k) · hidden (k, j), 0)        (neighbourhood aggregation, then the rectifier)

  Both programs compute exactly this composition, with the sums taken in the same nesting, so no law of the extended
  reals beyond the definitions is needed to join them. The zero of the rectifier is kept as the word it is printed as.
-/
import Idealize.ShloMosaic.Lib.ValueIdx
import Idealize.ShloMosaic.PureOps.Ideal

noncomputable section

namespace Cert.GcnLayer

open Idealize.ShloMosaic Idealize.ShloMosaic.ValueIdx

/-- The hidden features: entry (r, j) is the inner product of row r of x with row j of W, plus b (j). -/
def hidden (x : (⟨2, ![10000, 128]⟩ : Shape).Idx → EReal) (W : (⟨2, ![128, 128]⟩ : Shape).Idx → EReal)
    (b : (⟨1, ![128]⟩ : Shape).Idx → EReal) : (⟨2, ![10000, 128]⟩ : Shape).Idx → EReal :=
  fun i => (∑ l : Fin 128, x (ix2 (i 0) l) * W (ix2 (i 1) l)) + b (ix1 (i 1))

/-- The layer's output: entry (r, j) is row r of adj against column j of the hidden features, cut off below at zero. -/
def layer (adj : (⟨2, ![10000, 10000]⟩ : Shape).Idx → EReal) (h : (⟨2, ![10000, 128]⟩ : Shape).Idx → EReal) :
    (⟨2, ![10000, 128]⟩ : Shape).Idx → EReal :=
  fun i => max (∑ k : Fin 10000, adj (ix2 (i 0) k) * h (ix2 k (i 1))) (Ideal.ofBits .f32 0x00000000#32)

theorem hidden_apply (x : (⟨2, ![10000, 128]⟩ : Shape).Idx → EReal) (W : (⟨2, ![128, 128]⟩ : Shape).Idx → EReal)
    (b : (⟨1, ![128]⟩ : Shape).Idx → EReal) (r : Fin 10000) (j : Fin 128) :
    hidden x W b (ix2 r j) = (∑ l : Fin 128, x (ix2 r l) * W (ix2 j l)) + b (ix1 j) := rfl

theorem layer_apply (adj : (⟨2, ![10000, 10000]⟩ : Shape).Idx → EReal) (h : (⟨2, ![10000, 128]⟩ : Shape).Idx → EReal)
    (r : Fin 10000) (j : Fin 128) :
    layer adj h (ix2 r j) = max (∑ k : Fin 10000, adj (ix2 r k) * h (ix2 k j)) (Ideal.ofBits .f32 0x00000000#32) := rfl

end Cert.GcnLayer

end
-- ==== Proof.HiddenArray.lean ====
/-
  The first kernel call leaves the hidden features in its output array.

  The grid has ten points; point t works on rows 1000·t … 1000·t + 999 of x, on the whole of W and of the one-row bias, and
  writes rows 1000·t … 1000·t + 999 of the output. So what point t writes back is block t of one whole-array function,
  `hidden x W b`, and the ten blocks cover the array: row r lies in the block of point r / 1000.
  Everything is stated for any contents `V` of the buffers at the call's entry; the bias enters through the
  one-row buffer the call reads, related to the 128-vector b by `hb`.
-/
import proofs.«123959_g59639915872694_cont_9to1c4b_869_4_alg».proof.Proof.Gen.KernelIdeal.Frame
import proofs.«123959_g59639915872694_cont_9to1c4b_869_4_alg».proof.Proof.HiddenBlock
import proofs.«123959_g59639915872694_cont_9to1c4b_869_4_alg».proof.Proof.LayerSpec
import Idealize.ShloMosaic.Lib.Pipeline.Value

noncomputable section

namespace Cert.GcnLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The block indices at grid point t: the x window and the output window sit at row block t, the weight and bias windows
    at the origin (decided over the ten points). -/
theorem hidden_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the output window, computed from block t of x, the whole of W and the one-row bias, is block t of the hidden
    features — for arrays X, Wt, B of the call's three input buffers' types. -/
theorem hidden_block_read (X : S10000x128.Idx → EReal) (Wt : S128x128.Idx → EReal) (B : S1x128.Idx → EReal)
    (b : S128.Idx → EReal) (hb : ∀ j : Fin 128, B (ix2 (0 : Fin 1) j) = b (ix1 j)) (t : Fin cfg0.N) :
    (cfg0.win 3).cut (grid0.coords t)
        (k0_pay1 (F := Ideal) (((cfg0.win 0).blk t).view.read (Elt Ideal) X) (((cfg0.win 1).blk t).view.read (Elt Ideal) Wt)
          (((cfg0.win 2).blk t).view.read (Elt Ideal) B))
      = ((cfg0.win 3).blk t).view.read (Elt Ideal) (hidden X Wt b) := by
  rw [hidden_block]
  obtain ⟨e0, e1, e2, e3, e4, e5, e6, e7⟩ := hidden_index t
  funext j
  have hj0 : (j 0).val < 1000 := (j 0).isLt
  have hj1 : (j 1).val < 128 := (j 1).isLt
  show (∑ l : Fin 128, X (((cfg0.win 0).blk t).view.emb (ix2 (j 0) l))
        * Wt (((cfg0.win 1).blk t).view.emb (ix2 (j 1) l)))
      + B (((cfg0.win 2).blk t).view.emb (ix2 (0 : Fin 1) (j 1)))
    = (∑ l : Fin 128, X (ix2 ((((cfg0.win 3).blk t).view.emb j) 0) l)
        * Wt (ix2 ((((cfg0.win 3).blk t).view.emb j) 1) l))
      + b (ix1 ((((cfg0.win 3).blk t).view.emb j) 1))
  have hx : ∀ l : Fin 128, ((cfg0.win 0).blk t).view.emb (ix2 (j 0) l) = ix2 ((((cfg0.win 3).blk t).view.emb j) 0) l := fun l => by
    funext a; apply Fin.ext
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 128 + 1 * l.val = l.val; omega
  have hw : ∀ l : Fin 128, ((cfg0.win 1).blk t).view.emb (ix2 (j 1) l) = ix2 ((((cfg0.win 3).blk t).view.emb j) 1) l := fun l => by
    funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * l.val = l.val; omega
  have hbias : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hbias]
  exact congrArg₂ (· + ·)
    (Finset.sum_congr rfl fun l _ => congrArg₂ (· * ·) (congrArg X (hx l)) (congrArg Wt (hw l))) (hb _)

/-- What point t writes back is block t of the hidden features of the arrays the call finds. -/
theorem hidden_flushed (c : Dev nD) (b : S128.Idx → EReal)
    (hb : ∀ j : Fin 128, V c main_call0_v0 (ix2 (0 : Fin 1) j) = b (ix1 j)) (t : Fin cfg0.N) :
    (dat0 V c).flushed 3 t
      = ((cfg0.win 3).blk t).view.read (Elt Ideal) (hidden (V c main_arg0) (V c main_arg2) b) := by
  show (cfg0.win 3).cut (grid0.coords t) ((dat0 V c).after 3 t) = _
  rw [after0_3]
  unfold out0_3
  rw [View.canon_unit_zero origin2]
  simp only [View.ld_unit_zero (S := S1000x128) origin2, View.ld_unit_zero (S := S128x128) origin2,
    View.ld_unit_zero (S := S1x128) origin2]
  exact hidden_block_read (V c main_arg0) (V c main_arg2) (V c main_call0_v0) b hb t

/-- An index of the output array is in point t's block iff each coordinate is in the block's range on its axis. -/
theorem hidden_mem_block (t : Fin cfg0.N) (i : S10000x128.Idx) :
    i ∈ ((cfg0.win 3).blk t).view.set
      ↔ ∀ a : Fin 2, win0_3.index t a * S1000x128.size a ≤ (i a).val ∧ (i a).val < win0_3.index t a * S1000x128.size a + S1000x128.size a := by
  show i ∈ ((View.whole main_call0_v1).slice (win0_3.rect t)).set ↔ _
  rw [View.set_slice_whole, Rect.mem_set_unit]
  exact Iff.rfl

/-- Every row of the output array is written: row r by the point r / 1000. -/
theorem hidden_cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : grid0.N = 10 := N_0
  refine ⟨⟨(i 0).val / 1000, by show (i 0).val / 1000 < grid0.N; omega⟩, flush0_3 _, ?_⟩
  rw [hidden_mem_block]
  obtain ⟨-, -, -, -, -, -, e6, e7⟩ := hidden_index ⟨(i 0).val / 1000, by show (i 0).val / 1000 < grid0.N; omega⟩
  have e6' : win0_3.index ⟨(i 0).val / 1000, by show (i 0).val / 1000 < grid0.N; omega⟩ (0 : Fin 2) = (i 0).val / 1000 := e6
  intro a
  match a with
  | ⟨0, _⟩ =>
    show win0_3.index _ (0 : Fin 2) * 1000 ≤ (i 0).val ∧ (i 0).val < win0_3.index _ (0 : Fin 2) * 1000 + 1000
    rw [e6']; omega
  | ⟨1, _⟩ =>
    show win0_3.index _ (1 : Fin 2) * 128 ≤ (i 1).val ∧ (i 1).val < win0_3.index _ (1 : Fin 2) * 128 + 128
    rw [e7]; omega

/-- After the first call its output array holds the hidden features of the arrays it found. -/
theorem hidden_array (c : Dev nD) (b : S128.Idx → EReal)
    (hb : ∀ j : Fin 128, V c main_call0_v0 (ix2 (0 : Fin 1) j) = b (ix1 j)) :
    (dat0 V c).arrAt 3 cfg0.N = hidden (V c main_arg0) (V c main_arg2) b :=
  (dat0 V c).arrAt_eq_of_cover 3 _ (fun t _ => hidden_flushed V c b hb t) hidden_cover

end Cert.GcnLayer

end
-- ==== Proof.AggregateBlock.lean ====
/-
  The second kernel's body at one entry.

  On a block of 400 rows of adj and the whole of the hidden features, the body stores max (adj_blk · h, 0): entry (p, q) of
  the stored block is row p of the adj block against column q of h, cut off below at zero.
-/
import proofs.«123959_g59639915872694_cont_9to1c4b_869_4_alg».proof.Proof.Gen.KernelIdeal.Skeleton
import proofs.«123959_g59639915872694_cont_9to1c4b_869_4_alg».proof.Proof.LibPlainDot
import Idealize.ShloMosaic.Lib.Pipeline.Value
import Idealize.ShloMosaic.Lib.ValueIdx

noncomputable section

namespace Cert.GcnLayer

open Cert.KernelIdeal Cert.KernelIdeal.Gen Idealize.ShloMosaic Idealize.ShloMosaic.ValueIdx

/-- Entry (p, q) of what the second kernel stores: max (Σ_k adj (p, k) · h (k, q), 0). -/
theorem aggregate_block_apply (adj : FVec Ideal S400x10000 .f32) (h : FVec Ideal S10000x128 .f32) (p : Fin 400) (q : Fin 128) :
    k1_pay1 (F := Ideal) adj h (ix2 p q)
      = max (∑ k : Fin 10000, adj (ix2 p k) * h (ix2 k q)) (Ideal.ofBits .f32 0x00000000#32) := by
  unfold k1_pay1
  refine (maximumf_apply _ _ _).trans ?_
  refine congrArg₂ max ?_ rfl
  refine (Cert.PlainDot.matmul_apply dot_S400x10000_S10000x128_S400x128_1_0_0_1_n_n ⟨rfl, rfl, rfl, rfl, rfl, rfl⟩ none adj _ p q).trans ?_
  exact Finset.sum_congr rfl fun k _ => congrArg (adj (ix2 p k) * ·) (congrFun (shapeCast_self h _) _)

/-- The stored block as one function of its index. -/
theorem aggregate_block (adj : FVec Ideal S400x10000 .f32) (h : FVec Ideal S10000x128 .f32) :
    k1_pay1 (F := Ideal) adj h
      = fun j => max (∑ k : Fin 10000, adj (ix2 (j 0) k) * h (ix2 k (j 1))) (Ideal.ofBits .f32 0x00000000#32) := by
  funext j
  obtain ⟨p, q, rfl⟩ : ∃ (p : Fin 400) (q : Fin 128), j = ix2 p q := ⟨j 0, j 1, eq_ix2 j⟩
  exact aggregate_block_apply adj h p q

end Cert.GcnLayer

end
-- ==== Proof.AggregateArray.lean ====
/-
  The second kernel call leaves the layer's output in its output array.

  The grid has twenty-five points; point t works on rows 400·t … 400·t + 399 of adj and on the whole of the hidden
  features h, and writes rows 400·t … 400·t + 399 of the output. So what point t writes back is block t of one
  whole-array function, `layer adj h`, and the twenty-five blocks cover the array: row r lies in the block of point r / 400.
  Everything is stated for any contents `V` of the buffers at the call's entry.
-/
import proofs.«123959_g59639915872694_cont_9to1c4b_869_4_alg».proof.Proof.Gen.KernelIdeal.Frame
import proofs.«123959_g59639915872694_cont_9to1c4b_869_4_alg».proof.Proof.AggregateBlock
import proofs.«123959_g59639915872694_cont_9to1c4b_869_4_alg».proof.Proof.LayerSpec
import Idealize.ShloMosaic.Lib.Pipeline.Value

noncomputable section

namespace Cert.GcnLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The block indices at grid point t: the adj window and the output window sit at row block t, the window on the hidden
    features at the origin (decided over the twenty-five points). -/
theorem aggregate_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the output window, computed from block t of adj and the whole of h, is block t of the layer's output — for
    arrays A, H of the call's two input buffers' types. -/
theorem aggregate_block_read (A : S10000x10000.Idx → EReal) (H : S10000x128.Idx → EReal) (t : Fin cfg1.N) :
    (cfg1.win 2).cut (grid1.coords t)
        (k1_pay1 (F := Ideal) (((cfg1.win 0).blk t).view.read (Elt Ideal) A) (((cfg1.win 1).blk t).view.read (Elt Ideal) H))
      = ((cfg1.win 2).blk t).view.read (Elt Ideal) (layer A H) := by
  rw [aggregate_block]
  obtain ⟨e0, e1, e2, e3, e4, e5⟩ := aggregate_index t
  funext j
  have hj0 : (j 0).val < 400 := (j 0).isLt
  have hj1 : (j 1).val < 128 := (j 1).isLt
  show max (∑ k : Fin 10000, A (((cfg1.win 0).blk t).view.emb (ix2 (j 0) k))
        * H (((cfg1.win 1).blk t).view.emb (ix2 k (j 1)))) (Ideal.ofBits .f32 0x00000000#32)
    = max (∑ k : Fin 10000, A (ix2 ((((cfg1.win 2).blk t).view.emb j) 0) k)
        * H (ix2 k ((((cfg1.win 2).blk t).view.emb j) 1))) (Ideal.ofBits .f32 0x00000000#32)
  have ha : ∀ k : Fin 10000, ((cfg1.win 0).blk t).view.emb (ix2 (j 0) k) = ix2 ((((cfg1.win 2).blk t).view.emb j) 0) k := fun k => by
    funext a; apply Fin.ext
    match a with
    | ⟨0, _⟩ => show win1_0.index t (0 : Fin 2) * 400 + 1 * (j 0).val = win1_2.index t (0 : Fin 2) * 400 + 1 * (j 0).val; omega
    | ⟨1, _⟩ => show win1_0.index t (1 : Fin 2) * 10000 + 1 * k.val = k.val; omega
  have hh : ∀ k : Fin 10000, ((cfg1.win 1).blk t).view.emb (ix2 k (j 1)) = ix2 k ((((cfg1.win 2).blk t).view.emb j) 1) := fun k => by
    funext a; apply Fin.ext
    match a with
    | ⟨0, _⟩ => show win1_1.index t (0 : Fin 2) * 10000 + 1 * k.val = k.val; omega
    | ⟨1, _⟩ => show win1_1.index t (1 : Fin 2) * 128 + 1 * (j 1).val = win1_2.index t (1 : Fin 2) * 128 + 1 * (j 1).val; omega
  exact congrArg (max · _)
    (Finset.sum_congr rfl fun k _ => congrArg₂ (· * ·) (congrArg A (ha k)) (congrArg H (hh k)))

/-- What point t writes back is block t of the layer's output of the arrays the call finds. -/
theorem aggregate_flushed (c : Dev nD) (t : Fin cfg1.N) :
    (dat1 V c).flushed 2 t
      = ((cfg1.win 2).blk t).view.read (Elt Ideal) (layer (V c main_arg1) (V c main_call0_v1)) := by
  show (cfg1.win 2).cut (grid1.coords t) ((dat1 V c).after 2 t) = _
  rw [after1_2]
  unfold out1_2
  rw [View.canon_unit_zero origin2']
  simp only [View.ld_unit_zero (S := S400x10000) origin2', View.ld_unit_zero (S := S10000x128) origin2']
  exact aggregate_block_read (V c main_arg1) (V c main_call0_v1) t

/-- An index of the output array is in point t's block iff each coordinate is in the block's range on its axis. -/
theorem aggregate_mem_block (t : Fin cfg1.N) (i : S10000x128.Idx) :
    i ∈ ((cfg1.win 2).blk t).view.set
      ↔ ∀ a : Fin 2, win1_2.index t a * S400x128.size a ≤ (i a).val ∧ (i a).val < win1_2.index t a * S400x128.size a + S400x128.size a := by
  show i ∈ ((View.whole main_v0).slice (win1_2.rect t)).set ↔ _
  rw [View.set_slice_whole, Rect.mem_set_unit]
  exact Iff.rfl

/-- Every row of the output array is written: row r by the point r / 400. -/
theorem aggregate_cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : grid1.N = 25 := N_1
  refine ⟨⟨(i 0).val / 400, by show (i 0).val / 400 < grid1.N; omega⟩, flush1_2 _, ?_⟩
  rw [aggregate_mem_block]
  obtain ⟨-, -, -, -, e4, e5⟩ := aggregate_index ⟨(i 0).val / 400, by show (i 0).val / 400 < grid1.N; omega⟩
  have e4' : win1_2.index ⟨(i 0).val / 400, by show (i 0).val / 400 < grid1.N; omega⟩ (0 : Fin 2) = (i 0).val / 400 := e4
  intro a
  match a with
  | ⟨0, _⟩ =>
    show win1_2.index _ (0 : Fin 2) * 400 ≤ (i 0).val ∧ (i 0).val < win1_2.index _ (0 : Fin 2) * 400 + 400
    rw [e4']; omega
  | ⟨1, _⟩ =>
    show win1_2.index _ (1 : Fin 2) * 128 ≤ (i 1).val ∧ (i 1).val < win1_2.index _ (1 : Fin 2) * 128 + 128
    rw [e5]; omega

/-- After the second call its output array holds the layer's output of the arrays it found. -/
theorem aggregate_array (c : Dev nD) :
    (dat1 V c).arrAt 2 cfg1.N = layer (V c main_arg1) (V c main_call0_v1) :=
  (dat1 V c).arrAt_eq_of_cover 2 _ (fun t _ => aggregate_flushed V c t) aggregate_cover

end Cert.GcnLayer

end
-- ==== Proof.KernelValue.lean ====
/-
  The kernel program computes the layer.

  The program is one host operation (the bias reshaped to one row) and two kernel calls. Its run is taken once, with every
  buffer named at the end: each buffer ends at the contents of the last boundary, where a call's arrays hold what its
  write-backs left and every other buffer is as the call found it. Read at the result buffer, that is the second call's
  output array, the layer's output of adj and of the first call's output array; the first call's output array is the hidden
  features of x, W and the one-row bias, whose entry (0, j) is b (j). So the result buffer ends at
  `layer adj (hidden x W b)` of the arrays the program was launched on.
-/
import proofs.«123959_g59639915872694_cont_9to1c4b_869_4_alg».proof.Proof.Gen.KernelIdeal.Frame
import proofs.«123959_g59639915872694_cont_9to1c4b_869_4_alg».proof.Proof.HiddenArray
import proofs.«123959_g59639915872694_cont_9to1c4b_869_4_alg».proof.Proof.AggregateArray
import proofs.«123959_g59639915872694_cont_9to1c4b_869_4_alg».proof.Proof.LayerSpec
import Idealize.ShloMosaic.Lib.StableHlo.Run
import Idealize.ShloMosaic.Lib.ValueLayout

set_option maxRecDepth 16384

noncomputable section

namespace Cert.GcnLayer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ) (ρ : Dev nD → PrngReg)

/-! ## The buffers the first call finds -/

/-- The host operation does not touch x. -/
theorem entry_features (c : Dev nD) : V1 m ρ c main_arg0 = m ((c : Thread nD τ).loc main_arg0) := by
  show StableHlo.after hostOps0 (W0 m ρ c) (Proc.devRef .tc main_arg0) = _
  after_results <;> rfl

/-- The host operation does not touch W. -/
theorem entry_weights (c : Dev nD) : V1 m ρ c main_arg2 = m ((c : Thread nD τ).loc main_arg2) := by
  show StableHlo.after hostOps0 (W0 m ρ c) (Proc.devRef .tc main_arg2) = _
  after_results <;> rfl

/-- The host operation does not touch adj. -/
theorem entry_adjacency (c : Dev nD) : V1 m ρ c main_arg1 = m ((c : Thread nD τ).loc main_arg1) := by
  show StableHlo.after hostOps0 (W0 m ρ c) (Proc.devRef .tc main_arg1) = _
  after_results <;> rfl

/-- The one-row bias buffer holds b reshaped. -/
theorem entry_bias_row (c : Dev nD) :
    V1 m ρ c main_call0_v0 = shapeCast S1x128 (m ((c : Thread nD τ).loc main_arg3)) Facts₀.shapeCasts_S128_S1x128 := by
  show StableHlo.after hostOps0 (W0 m ρ c) (Proc.devRef .tc main_call0_v0) = _
  after_results <;> rfl

/-- Entry (0, j) of the one-row bias is b (j). -/
theorem entry_bias (c : Dev nD) (j : Fin 128) :
    V1 m ρ c main_call0_v0 (ix2 (0 : Fin 1) j) = m ((c : Thread nD τ).loc main_arg3) (ix1 j) :=
  (congrFun (entry_bias_row m ρ c) _).trans
    (shapeCast_a_1a_apply (m ((c : Thread nD τ).loc main_arg3)) Facts₀.shapeCasts_S128_S1x128 0 j)

/-! ## The buffers the second call finds -/

/-- The first call leaves the hidden features in the buffer the second call reads them from. -/
theorem between_hidden (c : Dev nD) :
    V2 m ρ c main_call0_v1
      = hidden (m ((c : Thread nD τ).loc main_arg0)) (m ((c : Thread nD τ).loc main_arg2)) (m ((c : Thread nD τ).loc main_arg3)) :=
  (W2_arr m ρ c 3).trans ((hidden_array (V1 m ρ) c (m ((c : Thread nD τ).loc main_arg3)) (entry_bias m ρ c)).trans
    (congrArg₂ (fun x w => hidden x w (m ((c : Thread nD τ).loc main_arg3))) (entry_features m ρ c) (entry_weights m ρ c)))

/-- The first call does not touch adj. -/
theorem between_adjacency (c : Dev nD) : V2 m ρ c main_arg1 = m ((c : Thread nD τ).loc main_arg1) :=
  (W2_of_ne m ρ c main_arg1 (by decide)).trans (entry_adjacency m ρ c)

/-! ## The result buffer at the end -/

/-- At the last boundary the result buffer holds the layer's output of the launch arrays. -/
theorem result_value (c : Dev nD) :
    W3 m ρ c (Proc.devRef .tc main_v0)
      = layer (m ((c : Thread nD τ).loc main_arg1))
          (hidden (m ((c : Thread nD τ).loc main_arg0)) (m ((c : Thread nD τ).loc main_arg2)) (m ((c : Thread nD τ).loc main_arg3))) :=
  (W3_arr m ρ c 2).trans ((aggregate_array (V2 m ρ) c).trans
    (congrArg₂ layer (between_adjacency m ρ c) (between_hidden m ρ c)))

/-! ## The run -/

-- the launch theorem's implicit arguments are found by unifying its conclusion with this statement, which takes unfolding
-- plain definitions in a metavariable's type
set_option backward.isDefEq.respectTransparency.types false in
/-- Every weakly fair execution of the program terminates, nothing faulting, and every buffer that lives across the
    program ends at the contents of the last boundary. -/
theorem run_boundaries : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- Every weakly fair execution of the program terminates, nothing faulting, with the result buffer at the layer's output
    of the launch arrays and the argument arrays as launched. -/
theorem run : θ_run defs (onTc (τ := τ) (main (F := Ideal))) ⟨m, fun _ => 0, ρ⟩ (fun r => ∀ c : Dev nD,
      r.2.mem ((c.tc : Thread nD τ).loc main_v0)
        = layer (m ((c.tc : Thread nD τ).loc main_arg1))
            (hidden (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v0 (by decide))).trans (result_value m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)
    (run_boundaries m ρ)

end Cert.GcnLayer

end
-- ==== Proof.ReferenceValue.lean ====
/-
  The reference computes the layer.

  Read one operation at a time, the reference's result is: transpose W; multiply x by it (entry (r, j) the inner product of
  row r of x with row j of W); add the bias repeated down the rows; multiply adj by the sum; take the maximum with zero.
  That is `layer adj (hidden x W b)` entry by entry, the sums in the order the specification takes them.
-/
import proofs.«123959_g59639915872694_cont_9to1c4b_869_4_alg».proof.Proof.Gen.ReferenceIdeal.Read
import proofs.«123959_g59639915872694_cont_9to1c4b_869_4_alg».proof.Proof.LayerSpec
import Idealize.ShloMosaic.Lib.ValueIdx

noncomputable section

namespace Cert.GcnLayer

open Cert.ReferenceIdeal Cert.ReferenceIdeal.Read Idealize.ShloMosaic Idealize.ShloMosaic.ValueIdx

/-- The reference's linear stage is the hidden features. -/
theorem reference_hidden (x : S10000x128.Idx → EReal) (W : S128x128.Idx → EReal) (b : S128.Idx → EReal) :
    val_main_v4 (F := Ideal) x W b = hidden x W b := by
  funext i
  obtain ⟨r, j, rfl⟩ : ∃ (r : Fin 10000) (j : Fin 128), i = ix2 r j := ⟨i 0, i 1, eq_ix2 i⟩
  have el : ∀ l : Fin 128, lidx_main_v1 (ix2 r j) l = ix2 r l := fun l =>
    funext fun a => Fin.ext (by match a with | ⟨0, _⟩ => rfl | ⟨1, _⟩ => rfl)
  have er : ∀ l : Fin 128, idx_main_v0 (ridx_main_v1 (ix2 r j) l) = ix2 j l := fun l =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  rw [val_main_v4_apply, val_main_v1_apply, val_main_v3_apply, val_main_v2_apply, hidden_apply, eb]
  simp only [val_main_v0_apply, el, er, Ideal.addf_def]

/-- The reference's result is the layer of the hidden features. -/
theorem reference_layer (x : S10000x128.Idx → EReal) (adj : S10000x10000.Idx → EReal) (W : S128x128.Idx → EReal)
    (b : S128.Idx → EReal) :
    val_main_v6 (F := Ideal) x adj W b = layer adj (hidden x W b) := by
  funext i
  obtain ⟨r, j, rfl⟩ : ∃ (r : Fin 10000) (j : Fin 128), i = ix2 r j := ⟨i 0, i 1, eq_ix2 i⟩
  have el : ∀ k : Fin 10000, lidx_main_v5 (ix2 r j) k = ix2 r k := fun k =>
    funext fun a => Fin.ext (by match a with | ⟨0, _⟩ => rfl | ⟨1, _⟩ => rfl)
  have er : ∀ k : Fin 10000, ridx_main_v5 (ix2 r j) k = ix2 k j := fun k =>
    funext fun a => Fin.ext (by match a with | ⟨0, _⟩ => rfl | ⟨1, _⟩ => rfl)
  rw [val_main_v6_apply, val_main_v5_apply, val_main_call0_v0_apply, val_main_call0_cst_apply, layer_apply, reference_hidden]
  simp only [el, er, Ideal.maximumf_def, Ideal.ofBits_def]

end Cert.GcnLayer

end
-- ==== Proof.lean ====
/-
  A dense graph-convolution layer, out = max (adj · (x · Wᵀ + b), 0), computed by two kernel calls, against the same
  expression computed by whole-array operations.

  Over the extended reals both programs return, at (r, j), max (Σ_k adj (r, k) · (Σ_l x (k, l) · W (j, l) + b (j)), 0):
  the first call leaves the hidden features x · Wᵀ + b block by block of 1000 rows, the second the rectified product with
  adj block by block of 400 rows, and the reference's operations spell the same two products, the same sum and the same
  maximum (Proof/LayerSpec.lean states the function; Proof/KernelValue.lean and Proof/ReferenceValue.lean read each program
  as it). The sums are nested alike on both sides, so the inputs' finiteness is never used. The idealization rewrote no
  operation of the kernel, so there is nothing to preserve.
-/
import proofs.«123959_g59639915872694_cont_9to1c4b_869_4_alg».proof.Defs
import proofs.«123959_g59639915872694_cont_9to1c4b_869_4_alg».proof.Proof.Gen.Kernel
import proofs.«123959_g59639915872694_cont_9to1c4b_869_4_alg».proof.Proof.Gen.Kernel.Skeleton
import proofs.«123959_g59639915872694_cont_9to1c4b_869_4_alg».proof.Proof.Gen.Kernel.Launch
import proofs.«123959_g59639915872694_cont_9to1c4b_869_4_alg».proof.Proof.Gen.Kernel.Points
import proofs.«123959_g59639915872694_cont_9to1c4b_869_4_alg».proof.Proof.Gen.Kernel.Frame
import proofs.«123959_g59639915872694_cont_9to1c4b_869_4_alg».proof.Proof.Gen.KernelIdeal
import proofs.«123959_g59639915872694_cont_9to1c4b_869_4_alg».proof.Proof.Gen.KernelIdeal.Skeleton
import proofs.«123959_g59639915872694_cont_9to1c4b_869_4_alg».proof.Proof.Gen.KernelIdeal.Launch
import proofs.«123959_g59639915872694_cont_9to1c4b_869_4_alg».proof.Proof.Gen.KernelIdeal.Points
import proofs.«123959_g59639915872694_cont_9to1c4b_869_4_alg».proof.Proof.Gen.KernelIdeal.Frame
import proofs.«123959_g59639915872694_cont_9to1c4b_869_4_alg».proof.Proof.Gen.ReferenceIdeal
import proofs.«123959_g59639915872694_cont_9to1c4b_869_4_alg».proof.Proof.Gen.Pre_finite_inputs
import proofs.«123959_g59639915872694_cont_9to1c4b_869_4_alg».proof.Proof.Gen.ReferenceIdeal.Run
import proofs.«123959_g59639915872694_cont_9to1c4b_869_4_alg».proof.Proof.Gen.ReferenceIdeal.Read
import proofs.«123959_g59639915872694_cont_9to1c4b_869_4_alg».proof.Proof.KernelValue
import proofs.«123959_g59639915872694_cont_9to1c4b_869_4_alg».proof.Proof.ReferenceValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- The reference runs and leaves its arguments as launched: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the layer's output of those arguments in their result buffers. -/
theorem algebraic : Cert.algebraic_KernelIdeal_ReferenceIdeal := by
  intro m ρ m' ρ' _ hagree
  refine ⟨_, Cert.GcnLayer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.GcnLayer.reference_layer _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
